-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x8x8 : Shape := ⟨4, ![128, 2048, 8, 8]⟩
abbrev S256x2048x8x8 : Shape := ⟨4, ![256, 2048, 8, 8]⟩
abbrev S_ : Shape := ⟨0, ![]⟩

class Facts : Prop where
  bcast_S_S128x2048x8x8 : S_.BroadcastsInDim S128x2048x8x8 (![] : Fin 0 → Fin S128x2048x8x8.rank)
  reducesTo_S128x2048x8x8_S_d0_1_2_3 : S128x2048x8x8.ReducesTo [0, 1, 2, 3] S_
  h_S_ : 0 < S_.numel
  bcast_S_S256x2048x8x8 : S_.BroadcastsInDim S256x2048x8x8 (![] : Fin 0 → Fin S256x2048x8x8.rank)
  reducesTo_S256x2048x8x8_S_d0_1_2_3 : S256x2048x8x8.ReducesTo [0, 1, 2, 3] S_

variable [Facts]

def fn {F : FTy → Type} [FloatOps F] (main_arg0 : FVec F S128x2048x8x8 .f32) (main_arg1 : FVec F S256x2048x8x8 .f32) : IVec S_ 1 :=
  let main_v0 : FVec F S128x2048x8x8 .f32 := Host.absf main_arg0
  let main_cst : FVec F S_ .f32 := constant S_ .f32 0x7F800000#32
  let main_v1 : FVec F S128x2048x8x8 .f32 := broadcastInDim S128x2048x8x8 ![] bcast_S_S128x2048x8x8 main_cst
  let main_v2 : IVec S128x2048x8x8 1 := cmpf .olt main_v0 main_v1
  let main_c : IVec S_ 1 := constantI S_ 1 1#1
  let main_v3 : IVec S_ 1 := (fun x v => Host.reduce IntOp.andi x v reducesTo_S128x2048x8x8_S_d0_1_2_3 h_S_) main_v2 main_c
  let main_v4 : FVec F S256x2048x8x8 .f32 := Host.absf main_arg1
  let main_cst_0 : FVec F S_ .f32 := constant S_ .f32 0x7F800000#32
  let main_v5 : FVec F S256x2048x8x8 .f32 := broadcastInDim S256x2048x8x8 ![] bcast_S_S256x2048x8x8 main_cst_0
  let main_v6 : IVec S256x2048x8x8 1 := cmpf .olt main_v4 main_v5
  let main_c_1 : IVec S_ 1 := constantI S_ 1 1#1
  let main_v7 : IVec S_ 1 := (fun x v => Host.reduce IntOp.andi x v reducesTo_S256x2048x8x8_S_d0_1_2_3 h_S_) main_v6 main_c_1
  let main_v8 : IVec S_ 1 := andi main_v3 main_v7
  main_v8
-- ==== Kernel.lean ====
abbrev S128x2048x8x8 : Shape := ⟨4, ![128, 2048, 8, 8]⟩
abbrev S256x2048x8x8 : Shape := ⟨4, ![256, 2048, 8, 8]⟩
abbrev S128x2048x64 : Shape := ⟨3, ![128, 2048, 64]⟩
abbrev S128x2048 : Shape := ⟨2, ![128, 2048]⟩
abbrev S128x128x64 : Shape := ⟨3, ![128, 128, 64]⟩
abbrev S128x128 : Shape := ⟨2, ![128, 128]⟩
abbrev S256x2048x64 : Shape := ⟨3, ![256, 2048, 64]⟩
abbrev S256x2048 : Shape := ⟨2, ![256, 2048]⟩
abbrev S256x128x64 : Shape := ⟨3, ![256, 128, 64]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S256 : Shape := ⟨1, ![256]⟩
abbrev S256x1 : Shape := ⟨2, ![256, 1]⟩
abbrev S1x256 : Shape := ⟨2, ![1, 256]⟩
abbrev S32768 : Shape := ⟨1, ![32768]⟩

abbrev nBuf : Space → Nat
  | .hbm => 8
  | .vmem => 11
  | .smem => 0
  | _ => 0

abbrev bufTy : (tb : Table) → Fin (tcTables nBuf tb) → BufTy
  | .hbm, ⟨0, _⟩ => ⟨S128x2048x8x8, .f32⟩
  | .hbm, ⟨1, _⟩ => ⟨S256x2048x8x8, .f32⟩
  | .hbm, ⟨2, _⟩ => ⟨S128x2048x64, .f32⟩
  | .hbm, ⟨3, _⟩ => ⟨S128x2048, .f32⟩
  | .hbm, ⟨4, _⟩ => ⟨S256x2048x64, .f32⟩
  | .hbm, ⟨5, _⟩ => ⟨S256x2048, .f32⟩
  | .hbm, ⟨6, _⟩ => ⟨S128x256, .f32⟩
  | .hbm, ⟨7, _⟩ => ⟨S32768, .f32⟩
  | .local _ .vmem, ⟨0, _⟩ => ⟨S128x128x64, .f32⟩
  | .local _ .vmem, ⟨1, _⟩ => ⟨S128x128x64, .f32⟩
  | .local _ .vmem, ⟨2, _⟩ => ⟨S128x128, .f32⟩
  | .local _ .vmem, ⟨3, _⟩ => ⟨S128x128, .f32⟩
  | .local _ .vmem, ⟨4, _⟩ => ⟨S256x128x64, .f32⟩
  | .local _ .vmem, ⟨5, _⟩ => ⟨S256x128x64, .f32⟩
  | .local _ .vmem, ⟨6, _⟩ => ⟨S256x128, .f32⟩
  | .local _ .vmem, ⟨7, _⟩ => ⟨S256x128, .f32⟩
  | .local _ .vmem, ⟨8, _⟩ => ⟨S128x2048, .f32⟩
  | .local _ .vmem, ⟨9, _⟩ => ⟨S256x2048, .f32⟩
  | .local _ .vmem, ⟨10, _⟩ => ⟨S128x256, .f32⟩
  | _, _ => ⟨S128x2048x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem2_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S128x2048x8x8_S128x2048x64 : S128x2048x8x8.ShapeCasts S128x2048x64
  inb_S128x128x64_S128x128x64_0_0_0 : ∀ a, (![0, 0, 0] : Fin 3 → Nat) a + S128x128x64.size a ≤ S128x128x64.size a
  h_S128x128x64 : 0 < S128x128x64.numel
  shapeCasts_S128x128x64_S128x128x64 : S128x128x64.ShapeCasts S128x128x64
  reduces_S128x128x64_S128x128 : S128x128x64.Reduces [2] S128x128
  inb_S128x128_S128x128_0_0 : ∀ a, (![0, 0] : Fin 2 → Nat) a + S128x128.size a ≤ S128x128.size a
  h_S128x128 : 0 < S128x128.numel
  shapeCasts_S256x2048x8x8_S256x2048x64 : S256x2048x8x8.ShapeCasts S256x2048x64
  inb_S256x128x64_S256x128x64_0_0_0 : ∀ a, (![0, 0, 0] : Fin 3 → Nat) a + S256x128x64.size a ≤ S256x128x64.size a
  h_S256x128x64 : 0 < S256x128x64.numel
  shapeCasts_S256x128x64_S256x128x64 : S256x128x64.ShapeCasts S256x128x64
  reduces_S256x128x64_S256x128 : S256x128x64.Reduces [2] S256x128
  inb_S256x128_S256x128_0_0 : ∀ a, (![0, 0] : Fin 2 → Nat) a + S256x128.size a ≤ S256x128.size a
  h_S256x128 : 0 < S256x128.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  reduces_S128x2048_S128 : S128x2048.Reduces [1] S128
  shapeCasts_S128_S128x1 : S128.ShapeCasts S128x1
  reduces_S256x2048_S256 : S256x2048.Reduces [1] S256
  shapeCasts_S256_S256x1 : S256.ShapeCasts S256x1
  transposes_S256x1_p1_0_S1x256 : S256x1.Transposes [1, 0] S1x256
  broadcasts_S128x1_S128x256 : S128x1.Broadcasts S128x256
  broadcasts_S1x256_S128x256 : S1x256.Broadcasts S128x256
  inb_S128x256_S128x256_0_0 : ∀ a, (![0, 0] : Fin 2 → Nat) a + S128x256.size a ≤ S128x256.size a
  h_S128x256 : 0 < S128x256.numel
  shapeCasts_S128x256_S32768 : S128x256.ShapeCasts S32768
  dot_S128x2048_S256x2048_S128x256_1_1_0_0_n_n_wf : DotDims.WF S128x2048 S256x2048 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x64.size a ≤ S128x2048x64.size a
  hwx0_0 : ∀ i : grid0.Coords, EltTy.bits .f32 = 32 ∨ (Rect.block (s := S128x2048x64) S128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x2048.size a
  hwx0_1 : ∀ i : grid0.Coords, EltTy.bits .f32 = 32 ∨ (Rect.block (s := S128x2048) S128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128x64.size a ≤ S256x2048x64.size a
  hwx1_0 : ∀ i : grid1.Coords, EltTy.bits .f32 = 32 ∨ (Rect.block (s := S256x2048x64) S256x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x2048.size a
  hwx1_1 : ∀ i : grid1.Coords, EltTy.bits .f32 = 32 ∨ (Rect.block (s := S256x2048) S256x128.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S128x2048.size a
  hwx2_0 : ∀ i : grid2.Coords, EltTy.bits .f32 = 32 ∨ (Rect.block (s := S128x2048) S128x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S256x2048.size a
  hwx2_1 : ∀ i : grid2.Coords, EltTy.bits .f32 = 32 ∨ (Rect.block (s := S256x2048) S256x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)

variable [Facts₀]

def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf

abbrev win0_0 : Pipeline.Window sig grid0 :=
  Pipeline.Window.ofSpec (Memref.whole main_v0) S128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S256x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S128x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v3) S256x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S128x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S128x2048x8x8 : Shape := ⟨4, ![128, 2048, 8, 8]⟩
abbrev S256x2048x8x8 : Shape := ⟨4, ![256, 2048, 8, 8]⟩
abbrev S_ : Shape := ⟨0, ![]⟩
abbrev S128x2048 : Shape := ⟨2, ![128, 2048]⟩
abbrev S256x2048 : Shape := ⟨2, ![256, 2048]⟩
abbrev S1x256x2048 : Shape := ⟨3, ![1, 256, 2048]⟩
abbrev S128x1x2048 : Shape := ⟨3, ![128, 1, 2048]⟩
abbrev S128x256x2048 : Shape := ⟨3, ![128, 256, 2048]⟩
abbrev S128x256 : Shape := ⟨2, ![128, 256]⟩
abbrev S32768 : Shape := ⟨1, ![32768]⟩

abbrev nBuf : Space → Nat
  | .hbm => 21
  | .vmem => 0
  | .smem => 0
  | _ => 0

abbrev bufTy : (tb : Table) → Fin (tcTables nBuf tb) → BufTy
  | .hbm, ⟨0, _⟩ => ⟨S128x2048x8x8, .f32⟩
  | .hbm, ⟨1, _⟩ => ⟨S256x2048x8x8, .f32⟩
  | .hbm, ⟨2, _⟩ => ⟨S_, .f32⟩
  | .hbm, ⟨3, _⟩ => ⟨S128x2048, .f32⟩
  | .hbm, ⟨4, _⟩ => ⟨S_, .f32⟩
  | .hbm, ⟨5, _⟩ => ⟨S128x2048, .f32⟩
  | .hbm, ⟨6, _⟩ => ⟨S128x2048, .f32⟩
  | .hbm, ⟨7, _⟩ => ⟨S_, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S1x256x2048, .f32⟩
  | .hbm, ⟨13, _⟩ => ⟨S128x1x2048, .f32⟩
  | .hbm, ⟨14, _⟩ => ⟨S128x256x2048, .f32⟩
  | .hbm, ⟨15, _⟩ => ⟨S128x256x2048, .f32⟩
  | .hbm, ⟨16, _⟩ => ⟨S128x256x2048, .f32⟩
  | .hbm, ⟨17, _⟩ => ⟨S128x256x2048, .f32⟩
  | .hbm, ⟨18, _⟩ => ⟨S_, .f32⟩
  | .hbm, ⟨19, _⟩ => ⟨S128x256, .f32⟩
  | .hbm, ⟨20, _⟩ => ⟨S32768, .f32⟩
  | _, _ => ⟨S128x2048x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S128x2048x8x8_S128x2048_d2_3 : S128x2048x8x8.ReducesTo [2, 3] S128x2048
  h_S_ : 0 < S_.numel
  bcast_S_S128x2048 : S_.BroadcastsInDim S128x2048 (![] : Fin 0 → Fin S128x2048.rank)
  reducesTo_S256x2048x8x8_S256x2048_d2_3 : S256x2048x8x8.ReducesTo [2, 3] S256x2048
  bcast_S_S256x2048 : S_.BroadcastsInDim S256x2048 (![] : Fin 0 → Fin S256x2048.rank)
  bcast_S256x2048_S1x256x2048_1_2 : S256x2048.BroadcastsInDim S1x256x2048 (![1, 2] : Fin 2 → Fin S1x256x2048.rank)
  bcast_S128x2048_S128x1x2048_0_2 : S128x2048.BroadcastsInDim S128x1x2048 (![0, 2] : Fin 2 → Fin S128x1x2048.rank)
  bcast_S1x256x2048_S128x256x2048_0_1_2 : S1x256x2048.BroadcastsInDim S128x256x2048 (![0, 1, 2] : Fin 3 → Fin S128x256x2048.rank)
  bcast_S128x1x2048_S128x256x2048_0_1_2 : S128x1x2048.BroadcastsInDim S128x256x2048 (![0, 1, 2] : Fin 3 → Fin S128x256x2048.rank)
  reducesTo_S128x256x2048_S128x256_d2 : S128x256x2048.ReducesTo [2] S128x256
  shapeCasts_S128x256_S32768 : S128x256.ShapeCasts S32768

variable [Facts₀]

class Facts : Prop extends Facts₀ where

variable [Facts]
-- ==== Proof.Spec.lean ====
/-
  The two closed forms this certificate joins, over the extended reals, with no program in sight.

  Both programs first average each 8×8 spatial window of a feature map x[n, c, ·, ·], and then compare every
  probe row p[a, ·] with every gallery row g[b, ·] over the 2048 channels.
  * The reference divides the window's sum by 64 (meanQ) and sums the squared differences (refDist).
  * The kernel reads the window as 64 consecutive entries, multiplies their sum by 1/64 (meanK), and expands the
    square: |p|² + |g|² − 2⟨p, g⟩, clamped below at zero (kerDist).
  On finite inputs the two agree: 1/64 is the exact reciprocal of 64, the square expands termwise because every
  entry is a real number, and a sum of squares is never negative, so the clamp is inert.
-/
import Idealize.ShloMosaic.PureOps.Ideal
import Idealize.ShloMosaic.PureOps.Ideal.Laws
import Idealize.ShloMosaic.Lib.ValueIdx

noncomputable section

open scoped BigOperators

namespace Cert.PairDist

open Idealize.ShloMosaic Idealize.ShloMosaic.ValueIdx

/-- A batch of N feature maps: 2048 channels, each an 8×8 window. -/
abbrev Maps (N : Nat) : Shape := ⟨4, ![N, 2048, 8, 8]⟩
/-- The pooled features: one number per map and channel. -/
abbrev Feat (N : Nat) : Shape := ⟨2, ![N, 2048]⟩
/-- The table of distances: probe row × gallery row. -/
abbrev Pairs : Shape := ⟨2, ![128, 256]⟩

/-- The window's entry number s in row-major order: row s / 8, column s % 8. -/
abbrev cell {N : Nat} (n : Fin N) (c : Fin 2048) (s : Fin 64) : (Maps N).Idx :=
  ix4 n c ⟨s.val / 8, by have := s.isLt; omega⟩ ⟨s.val % 8, by have := s.isLt; omega⟩

/-- The window mean as the reference takes it: the sum over rows and columns, divided by 64. -/
def meanQ {N : Nat} (x : (Maps N).Idx → EReal) (n : Fin N) (c : Fin 2048) : EReal :=
  Ideal.div (∑ h : Fin 8, ∑ w : Fin 8, x (ix4 n c h w)) ((64 : ℝ) : EReal)

/-- The window mean as the kernel takes it: the sum of the 64 consecutive entries, times 1/64. -/
def meanK {N : Nat} (x : (Maps N).Idx → EReal) (n : Fin N) (c : Fin 2048) : EReal :=
  (∑ s : Fin 64, x (cell n c s)) * ((1 / 64 : ℝ) : EReal)

/-- The reference's distance table: the sum over channels of the squared difference of the two means. -/
def refDist (x0 : (Maps 128).Idx → EReal) (x1 : (Maps 256).Idx → EReal) : Pairs.Idx → EReal := fun i =>
  ∑ k : Fin 2048, (meanQ x1 (i 1) k - meanQ x0 (i 0) k) * (meanQ x1 (i 1) k - meanQ x0 (i 0) k)

/-- The kernel's distance table from pooled features p, g: |p|² + |g|² − 2⟨p, g⟩, clamped below at zero. -/
def kerDist (p : Fin 128 → Fin 2048 → EReal) (g : Fin 256 → Fin 2048 → EReal) : Pairs.Idx → EReal := fun i =>
  max (((∑ k : Fin 2048, p (i 0) k * p (i 0) k) + ∑ k : Fin 2048, g (i 1) k * g (i 1) k)
        - ((2 : ℝ) : EReal) * ∑ k : Fin 2048, p (i 0) k * g (i 1) k) 0

/-! ## The float words the two programs spell, as the numbers they denote -/

theorem ofBits_64 : Ideal.ofBits .f32 0x42800000#32 = ((64 : ℝ) : EReal) := by
  simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.PairDist

end
-- ==== Proof.KernelRun.lean ====
/-
  The idealized kernel's whole run, with the result array NAMED.

  The program is three kernel launches among host reshapes. Its generated frame certificate already carries, through
  every segment boundary, the contents of every buffer as a fold from the launch memory; at the end it keeps only the
  two argument arrays. Here the same launch is read out once more, keeping also the result array: after the run it
  holds the last boundary's contents at the result buffer, and the arguments are as launched.
-/
import proofs.«157851_j61735859913133_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and the two argument arrays end as launched. -/
theorem run_named : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
       (h c _ (mem_uc main_arg0 (by decide))).trans (W6_main_arg0 m ρ c),
       (h c _ (mem_uc main_arg1 (by decide))).trans (W6_main_arg1 m ρ c)⟩)

end Cert.KernelIdeal.Gen

end
-- ==== Proof.KernelChain.lean ====
/-
  The result buffer's contents after the run, unwound through the program's segments.

  The program is: reshape the probe maps [128,2048,8,8] to [128,2048,64]; pool them (launch 0); reshape the gallery
  maps [256,2048,8,8] to [256,2048,64]; pool them (launch 1); compare the two pooled arrays (launch 2); reshape the
  [128,256] table to [32768]. Each boundary's contents is the previous one's with the segment's writes applied, so:
  the result is the reshape of what launch 2 leaves in its output array; launch 2 finds, in its two input arrays, what
  launches 0 and 1 left in their output arrays (nothing in between writes them); and launches 0 and 1 find, in their
  input arrays, the two reshaped arguments.
-/
import proofs.«157851_j61735859913133_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- After the last reshape the result buffer holds the reshaped distance table. -/
theorem result_eq (c : Dev nD) :
    W6 m ρ c (Proc.devRef .tc main_v5)
      = shapeCast S32768 (W5 m ρ c (Proc.devRef .tc main_v4)) shapeCasts_S128x256_S32768 := by
  show StableHlo.after hostOps3 (W5 m ρ c) (Proc.devRef .tc main_v5) = _
  after_results
  rfl

/-- The distance table is what launch 2 leaves in its output array. -/
theorem table_eq (c : Dev nD) :
    W5 m ρ c (Proc.devRef .tc main_v4) = (dat2 (V4 m ρ) c).arrAt 2 cfg2.N :=
  W5_arr m ρ c 2

/-- Launch 2 finds the pooled probe features as launch 0 left them: launch 1 and the reshape before it write other buffers. -/
theorem probe_feat_eq (c : Dev nD) :
    V4 m ρ c main_v1 = (dat0 (V1 m ρ) c).arrAt 1 cfg0.N :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.reshape_writes, Finset.mem_singleton]
          repeat' apply And.intro
          all_goals exact StableHlo.devRef_ne_of_ne (by decide)))
    _ = (dat0 (V1 m ρ) c).arrAt 1 cfg0.N := W2_arr m ρ c 1

/-- Launch 2 finds the pooled gallery features as launch 1 left them. -/
theorem gallery_feat_eq (c : Dev nD) :
    V4 m ρ c main_v3 = (dat1 (V3 m ρ) c).arrAt 1 cfg1.N :=
  W4_arr m ρ c 1

/-- Launch 0 finds the probe maps with each 8×8 window flattened to 64 entries. -/
theorem probe_maps_eq (c : Dev nD) :
    V1 m ρ c main_v0
      = shapeCast S128x2048x64 (m ((c : Thread nD τ).loc main_arg0)) shapeCasts_S128x2048x8x8_S128x2048x64 := by
  show StableHlo.after hostOps0 (W0 m ρ c) (Proc.devRef .tc main_v0) = _
  after_results
  rfl

/-- Launch 1 finds the gallery maps with each 8×8 window flattened to 64 entries: launch 0 and the first reshape
    write other buffers. -/
theorem gallery_maps_eq (c : Dev nD) :
    V3 m ρ c main_v2
      = shapeCast S256x2048x64 (m ((c : Thread nD τ).loc main_arg1)) shapeCasts_S256x2048x8x8_S256x2048x64 := by
  have e1 : W2 m ρ c (Proc.devRef .tc main_arg1) = m ((c : Thread nD τ).loc main_arg1) :=
    calc W2 m ρ c (Proc.devRef .tc main_arg1)
      _ = W1 m ρ c (Proc.devRef .tc main_arg1) := W2_of_ne m ρ c main_arg1 (by decide)
      _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.reshape_writes, Finset.mem_singleton]
          repeat' apply And.intro
          all_goals exact StableHlo.devRef_ne_of_ne (by decide)))
      _ = m ((c : Thread nD τ).loc main_arg1) := rfl
  show StableHlo.after hostOps1 (W2 m ρ c) (Proc.devRef .tc main_v2) = _
  after_results
  rw [e1]
  rfl

end Cert.KernelIdeal.Chain

end
-- ==== Proof.ArrayForms.lean ====
/-
  The two array-to-array functions the kernel's launches compute, over the extended reals.

  poolOf X: from an array X of N maps × 2048 channels × 64 window entries, the array of N × 2048 numbers whose
  entry (n, k) is the sum of the 64 entries X (n, k, ·) times the float word the kernel multiplies by (which
  denotes 1/64).
  tableOf P G: from pooled arrays P (128 × 2048) and G (256 × 2048), the 128 × 256 table whose entry (p, q) is
  |P p|² + |G q|² − w₂ · ⟨P p, G q⟩ clamped below at w₀, with w₂ and w₀ the float words the kernel spells (they
  denote 2 and 0).
-/
import Idealize.ShloMosaic.PureOps.Ideal
import Idealize.ShloMosaic.Lib.ValueIdx

noncomputable section

open scoped BigOperators

namespace Cert.PairDist

open Idealize.ShloMosaic Idealize.ShloMosaic.ValueIdx

/-- The pooled array of an array of flattened windows. -/
def poolOf {N : Nat} (X : (⟨3, ![N, 2048, 64]⟩ : Shape).Idx → EReal) : (⟨2, ![N, 2048]⟩ : Shape).Idx → EReal := fun j =>
  (∑ s : Fin 64, X (ix3 (⟨(j 0).val, idx2_lt0 j⟩ : Fin N) (⟨(j 1).val, idx2_lt1 j⟩ : Fin 2048) s))
    * Ideal.ofBits .f32 0x3C800000#32

theorem poolOf_ix2 {N : Nat} (X : (⟨3, ![N, 2048, 64]⟩ : Shape).Idx → EReal) (n : Fin N) (k : Fin 2048) :
    poolOf X (ix2 n k) = (∑ s : Fin 64, X (ix3 n k s)) * Ideal.ofBits .f32 0x3C800000#32 := rfl

/-- The kernel's distance table of two pooled arrays. -/
def tableOf (P : (⟨2, ![128, 2048]⟩ : Shape).Idx → EReal) (G : (⟨2, ![256, 2048]⟩ : Shape).Idx → EReal) :
    (⟨2, ![128, 256]⟩ : Shape).Idx → EReal := fun j =>
  max (((∑ k : Fin 2048, P (ix2 (⟨(j 0).val, idx2_lt0 j⟩ : Fin 128) k) * P (ix2 (⟨(j 0).val, idx2_lt0 j⟩ : Fin 128) k))
          + ∑ k : Fin 2048, G (ix2 (⟨(j 1).val, idx2_lt1 j⟩ : Fin 256) k) * G (ix2 (⟨(j 1).val, idx2_lt1 j⟩ : Fin 256) k))
        - Ideal.ofBits .f32 0x40000000#32
          * ∑ k : Fin 2048, P (ix2 (⟨(j 0).val, idx2_lt0 j⟩ : Fin 128) k) * G (ix2 (⟨(j 1).val, idx2_lt1 j⟩ : Fin 256) k))
      (Ideal.ofBits .f32 0x00000000#32)

theorem tableOf_ix2 (P : (⟨2, ![128, 2048]⟩ : Shape).Idx → EReal) (G : (⟨2, ![256, 2048]⟩ : Shape).Idx → EReal)
    (p : Fin 128) (q : Fin 256) :
    tableOf P G (ix2 p q)
      = max (((∑ k : Fin 2048, P (ix2 p k) * P (ix2 p k)) + ∑ k : Fin 2048, G (ix2 q k) * G (ix2 q k))
              - Ideal.ofBits .f32 0x40000000#32 * ∑ k : Fin 2048, P (ix2 p k) * G (ix2 q k))
          (Ideal.ofBits .f32 0x00000000#32) := rfl

end Cert.PairDist

end
-- ==== Proof.Algebra.lean ====
/-
  The two closed forms of the pairwise squared distance agree on finite inputs.

  * The 64 consecutive entries of an 8×8 window, read in row-major order, are its 8 rows of 8 entries:
    the map s ↦ (s / 8, s % 8) is a bijection from Fin 64 onto Fin 8 × Fin 8, so the two sums coincide.
  * Dividing by 64 is multiplying by 1/64, so the two window means coincide.
  * When every entry is a real number, every window mean is a real number.
  * Over the reals, ∑ (g k − p k)² = ∑ p k² + ∑ g k² − 2 ∑ p k g k, and a sum of squares is nonnegative,
    so clamping it below at zero changes nothing.
-/
import proofs.«157851_j61735859913133_2_alg».proof.Proof.Spec

noncomputable section

open scoped BigOperators

namespace Cert.PairDist

open Idealize.ShloMosaic Idealize.ShloMosaic.ValueIdx

/-- The inclusion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The 64 consecutive entries of a window are its 8 rows of 8 entries. -/
theorem sum_cell {N : Nat} (x : (Maps N).Idx → EReal) (n : Fin N) (c : Fin 2048) :
    ∑ s : Fin 64, x (cell n c s) = ∑ h : Fin 8, ∑ w : Fin 8, x (ix4 n c h w) :=
  calc ∑ s : Fin 64, x (cell n c s)
      = ∑ p : Fin 8 × Fin 8, x (ix4 n c p.1 p.2) :=
        Fintype.sum_equiv (finProdFinEquiv (m := 8) (n := 8)).symm _ _ (fun _ => rfl)
    _ = ∑ h : Fin 8, ∑ w : Fin 8, x (ix4 n c h w) :=
        Fintype.sum_prod_type' (fun h w => x (ix4 n c h w))

/-- Multiplying the window sum by 1/64 is dividing it by 64. -/
theorem meanK_eq_meanQ {N : Nat} (x : (Maps N).Idx → EReal) : meanK x = meanQ x := by
  funext n c
  unfold meanK meanQ
  rw [Ideal.div_coe (by norm_num : (64 : ℝ) ≠ 0), sum_cell]

/-- The mean of a window of real numbers is a real number. -/
theorem meanQ_real {N : Nat} (x : (Maps N).Idx → EReal) (hx : ∀ i, ∃ r : ℝ, x i = (r : EReal))
    (n : Fin N) (c : Fin 2048) : ∃ r : ℝ, meanQ x n c = (r : EReal) := by
  choose f hf using hx
  refine ⟨(∑ h : Fin 8, ∑ w : Fin 8, f (ix4 n c h w)) * (1 / 64), ?_⟩
  unfold meanQ
  rw [Ideal.div_coe (by norm_num : (64 : ℝ) ≠ 0)]
  simp only [hf, ← coe_finset_sum, ← EReal.coe_mul]

/-- Over the reals the expanded square is the sum of squared differences, which is nonnegative, so the clamp
    at zero is inert. -/
theorem expand_sq {ι : Type*} [Fintype ι] (P G : ι → ℝ) :
    max (((∑ k, (P k : EReal) * P k) + ∑ k, (G k : EReal) * G k)
          - ((2 : ℝ) : EReal) * ∑ k, (P k : EReal) * G k) 0
      = ∑ k, ((G k : EReal) - P k) * ((G k : EReal) - P k) := by
  have hR : (∑ k, P k * P k) + (∑ k, G k * G k) - 2 * ∑ k, P k * G k
      = ∑ k, (G k - P k) * (G k - P k) := by
    rw [Finset.mul_sum, ← Finset.sum_add_distrib, ← Finset.sum_sub_distrib]
    exact Finset.sum_congr rfl (fun k _ => by ring)
  have h0 : 0 ≤ ∑ k, (G k - P k) * (G k - P k) := Finset.sum_nonneg (fun k _ => mul_self_nonneg _)
  simp only [← EReal.coe_mul, ← EReal.coe_sub, ← coe_finset_sum, ← EReal.coe_add]
  rw [hR, max_eq_left (EReal.coe_nonneg.mpr h0)]

/-- On finite inputs the kernel's closed form equals the reference's. -/
theorem kerDist_meanK_eq_refDist (x0 : (Maps 128).Idx → EReal) (x1 : (Maps 256).Idx → EReal)
    (h0 : ∀ i, ∃ r : ℝ, x0 i = (r : EReal)) (h1 : ∀ i, ∃ r : ℝ, x1 i = (r : EReal)) :
    kerDist (meanK x0) (meanK x1) = refDist x0 x1 := by
  funext i
  rw [meanK_eq_meanQ, meanK_eq_meanQ]
  unfold kerDist refDist
  choose P hP using fun k => meanQ_real x0 h0 (i 0) k
  choose G hG using fun k => meanQ_real x1 h1 (i 1) k
  simp only [hP, hG]
  exact expand_sq P G

end Cert.PairDist

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.Payloads.lean ====
/-
  The three kernel bodies' arithmetic, read at one index over the extended reals.

  * A pooling body sums the 64 entries of a window along the last axis and multiplies the sum by the constant
    word for 1/64: at (p, q) it is (∑ s, x (p, q, s)) times that word's value.
  * The distance body forms the row sums of squares of its two operands, keeps them as a column and a row,
    broadcasts both over the table, subtracts twice the matrix product of the operands (contracted over the
    channel axis), and clamps the result below at zero: at (p, q) it is
    max (∑ x(p,k)² + ∑ g(q,k)² − 2 ∑ x(p,k) g(q,k)) 0.
  The narrowing format change before the matrix product is the identity on extended reals, and a cast of an
  array to its own shape is the identity.
-/
import proofs.«157851_j61735859913133_2_alg».proof.Proof.Gen.KernelIdeal.Skeleton
import proofs.«157851_j61735859913133_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The first pooling body at (p, q): the window's sum times the value of the word for 1/64. -/
theorem pool0_apply (x : Vec Ideal S128x128x64 .f32) (p q : Fin 128) :
    k0_pay1 (F := Ideal) x (ix2 p q) = (∑ s : Fin 64, x (ix3 p q s)) * Ideal.ofBits .f32 0x3C800000#32 := by
  unfold k0_pay1
  rw [shapeCast_self]
  show multiReduction (F := Ideal) .add [2] S128x128 x 0x00000000#32 reduces_S128x128x64_S128x128 (.inl rfl) rfl (ix2 p q)
      * Ideal.ofBits .f32 0x3C800000#32 = _
  refine congrArg (· * Ideal.ofBits .f32 0x3C800000#32) ?_
  refine (Ideal.multiReduction_add_single x 0x00000000#32 reduces_S128x128x64_S128x128 (.inl rfl) rfl (ix2 p q)).trans ?_
  exact Finset.sum_congr rfl fun k _ => congrArg x (funext fun a => Fin.ext (by
    match a with | ⟨0, _⟩ => rfl | ⟨1, _⟩ => rfl | ⟨2, _⟩ => rfl))

/-- The second pooling body at (p, q): the same reading over 256 rows. -/
theorem pool1_apply (x : Vec Ideal S256x128x64 .f32) (p : Fin 256) (q : Fin 128) :
    k1_pay1 (F := Ideal) x (ix2 p q) = (∑ s : Fin 64, x (ix3 p q s)) * Ideal.ofBits .f32 0x3C800000#32 := by
  unfold k1_pay1
  rw [shapeCast_self]
  show multiReduction (F := Ideal) .add [2] S256x128 x 0x00000000#32 reduces_S256x128x64_S256x128 (.inl rfl) rfl (ix2 p q)
      * Ideal.ofBits .f32 0x3C800000#32 = _
  refine congrArg (· * Ideal.ofBits .f32 0x3C800000#32) ?_
  refine (Ideal.multiReduction_add_single x 0x00000000#32 reduces_S256x128x64_S256x128 (.inl rfl) rfl (ix2 p q)).trans ?_
  exact Finset.sum_congr rfl fun k _ => congrArg x (funext fun a => Fin.ext (by
    match a with | ⟨0, _⟩ => rfl | ⟨1, _⟩ => rfl | ⟨2, _⟩ => rfl))

/-! ## The distance body -/

/-- A row's sum of squares over the 2048 channels, 128 rows. -/
theorem rowSq128_apply (x : FVec Ideal S128x2048 .f32) (p : Fin 128) :
    multiReduction (F := Ideal) .add [1] S128 (mulf x x) 0x00000000#32 reduces_S128x2048_S128 (.inl rfl) rfl (ix1 p)
      = ∑ k : Fin 2048, x (ix2 p k) * x (ix2 p k) := by
  refine (Ideal.multiReduction_add_single (mulf x x) 0x00000000#32 reduces_S128x2048_S128 (.inl rfl) rfl (ix1 p)).trans ?_
  refine Finset.sum_congr rfl fun k _ => ?_
  have e : reduces_S128x2048_S128.lift (ix1 p) k = ix2 p k := funext fun a => Fin.ext (by
    match a with | ⟨0, _⟩ => rfl | ⟨1, _⟩ => rfl)
  rw [e]
  rfl

/-- A row's sum of squares over the 2048 channels, 256 rows. -/
theorem rowSq256_apply (g : FVec Ideal S256x2048 .f32) (q : Fin 256) :
    multiReduction (F := Ideal) .add [1] S256 (mulf g g) 0x00000000#32 reduces_S256x2048_S256 (.inl rfl) rfl (ix1 q)
      = ∑ k : Fin 2048, g (ix2 q k) * g (ix2 q k) := by
  refine (Ideal.multiReduction_add_single (mulf g g) 0x00000000#32 reduces_S256x2048_S256 (.inl rfl) rfl (ix1 q)).trans ?_
  refine Finset.sum_congr rfl fun k _ => ?_
  have e : reduces_S256x2048_S256.lift (ix1 q) k = ix2 q k := funext fun a => Fin.ext (by
    match a with | ⟨0, _⟩ => rfl | ⟨1, _⟩ => rfl)
  rw [e]
  rfl

/-- The left operand's index of the product: row of the result, contraction coordinate. -/
theorem lhs_0 (i : S128x256.Idx) (c : dot_S128x2048_S256x2048_S128x256_1_1_0_0_n_n.contr.Idx) :
    (dot_S128x2048_S256x2048_S128x256_1_1_0_0_n_n.lhsIdx i c 0).val = (i 0).val := by
  unfold DotDims.lhsIdx
  rw [dif_neg (show ¬(0 : Fin S128x2048.rank) ∈ dot_S128x2048_S256x2048_S128x256_1_1_0_0_n_n.lhsBatch by decide),
    dif_pos (show (0 : Fin S128x2048.rank) ∈ dot_S128x2048_S256x2048_S128x256_1_1_0_0_n_n.lhsNonContracting by decide)]
  rfl

theorem lhs_1 (i : S128x256.Idx) (c : dot_S128x2048_S256x2048_S128x256_1_1_0_0_n_n.contr.Idx) :
    (dot_S128x2048_S256x2048_S128x256_1_1_0_0_n_n.lhsIdx i c 1).val = (c ⟨0, by decide⟩).val :=
  dot_S128x2048_S256x2048_S128x256_1_1_0_0_n_n.lhsIdx_val_of_single rfl i c

/-- The right operand's index of the product: column of the result, contraction coordinate. -/
theorem rhs_0 (i : S128x256.Idx) (c : dot_S128x2048_S256x2048_S128x256_1_1_0_0_n_n.contr.Idx) :
    (dot_S128x2048_S256x2048_S128x256_1_1_0_0_n_n.rhsIdx i c 0).val = (i 1).val := by
  unfold DotDims.rhsIdx
  rw [dif_neg (show ¬(0 : Fin S256x2048.rank) ∈ dot_S128x2048_S256x2048_S128x256_1_1_0_0_n_n.rhsBatch by decide),
    dif_pos (show (0 : Fin S256x2048.rank) ∈ dot_S128x2048_S256x2048_S128x256_1_1_0_0_n_n.rhsNonContracting by decide)]
  rfl

theorem rhs_1 (i : S128x256.Idx) (c : dot_S128x2048_S256x2048_S128x256_1_1_0_0_n_n.contr.Idx) :
    (dot_S128x2048_S256x2048_S128x256_1_1_0_0_n_n.rhsIdx i c 1).val = (c ⟨0, by decide⟩).val :=
  dot_S128x2048_S256x2048_S128x256_1_1_0_0_n_n.rhsIdx_val_of_single rfl i c

/-- The matrix product into the zero accumulator at (p, q): the sum over channels of the products of the
    two rows' entries (the narrowing before it is the identity on extended reals). -/
theorem gram_apply (x : FVec Ideal S128x2048 .f32) (g : FVec Ideal S256x2048 .f32) (p : Fin 128) (q : Fin 256) :
    matmul (F := Ideal) dot_S128x2048_S256x2048_S128x256_1_1_0_0_n_n none (truncf .bf16 x bitsLt_bf16_f32)
        (truncf .bf16 g bitsLt_bf16_f32) (constant S128x256 .f32 0x00000000#32) (ix2 p q)
      = ∑ k : Fin 2048, x (ix2 p k) * g (ix2 q k) := by
  refine (Ideal.matmul_constant_zero_apply dot_S128x2048_S256x2048_S128x256_1_1_0_0_n_n none _ _ (ix2 p q)).trans ?_
  rw [← Equiv.sum_comp (contrEquiv1 dot_S128x2048_S256x2048_S128x256_1_1_0_0_n_n 2048 rfl rfl).symm]
  refine Finset.sum_congr rfl fun k _ => ?_
  have hk := contrEquiv1_symm_val dot_S128x2048_S256x2048_S128x256_1_1_0_0_n_n 2048 rfl rfl k
  have el : dot_S128x2048_S256x2048_S128x256_1_1_0_0_n_n.lhsIdx (ix2 p q)
      ((contrEquiv1 dot_S128x2048_S256x2048_S128x256_1_1_0_0_n_n 2048 rfl rfl).symm k) = ix2 p k :=
    funext fun a => Fin.ext (by
      match a with
      | ⟨0, _⟩ => exact lhs_0 _ _
      | ⟨1, _⟩ => exact (lhs_1 _ _).trans hk)
  have er : dot_S128x2048_S256x2048_S128x256_1_1_0_0_n_n.rhsIdx (ix2 p q)
      ((contrEquiv1 dot_S128x2048_S256x2048_S128x256_1_1_0_0_n_n 2048 rfl rfl).symm k) = ix2 q k :=
    funext fun a => Fin.ext (by
      match a with
      | ⟨0, _⟩ => exact rhs_0 _ _
      | ⟨1, _⟩ => exact (rhs_1 _ _).trans hk)
  rw [el, er]
  rfl

/-- The distance body at (p, q): the two rows' sums of squares, minus the value of the word for 2 times their
    inner product, clamped below at the value of the zero word. -/
theorem dist_apply (x : Vec Ideal S128x2048 .f32) (g : Vec Ideal S256x2048 .f32) (p : Fin 128) (q : Fin 256) :
    k2_pay1 (F := Ideal) x g (ix2 p q)
      = max (((∑ k : Fin 2048, x (ix2 p k) * x (ix2 p k)) + ∑ k : Fin 2048, g (ix2 q k) * g (ix2 q k))
              - Ideal.ofBits .f32 0x40000000#32 * ∑ k : Fin 2048, x (ix2 p k) * g (ix2 q k))
          (Ideal.ofBits .f32 0x00000000#32) := by
  unfold k2_pay1
  rw [shapeCast_self, shapeCast_self]
  have hA : broadcastTo S128x256 (shapeCast S128x1 (multiReduction (F := Ideal) .add [1] S128
        (mulf (x : FVec Ideal S128x2048 .f32) x) 0x00000000#32 reduces_S128x2048_S128 (.inl rfl) rfl)
        shapeCasts_S128_S128x1) broadcasts_S128x1_S128x256 (ix2 p q)
      = ∑ k : Fin 2048, x (ix2 p k) * x (ix2 p k) :=
    (Cert.Rbf.Keepdims.broadcastTo_a1_ab_apply _ _ p q).trans
      ((Cert.Rbf.Keepdims.shapeCast_a_a1_apply _ _ p 0).trans (rowSq128_apply x p))
  have hB : broadcastTo S128x256 (transpose S1x256 [1, 0] (shapeCast S256x1 (multiReduction (F := Ideal) .add [1] S256
        (mulf (g : FVec Ideal S256x2048 .f32) g) 0x00000000#32 reduces_S256x2048_S256 (.inl rfl) rfl)
        shapeCasts_S256_S256x1) transposes_S256x1_p1_0_S1x256) broadcasts_S1x256_S128x256 (ix2 p q)
      = ∑ k : Fin 2048, g (ix2 q k) * g (ix2 q k) :=
    (broadcastTo_1b_ab_apply _ _ p q).trans
      ((transpose_ix2_apply _ _ 0 q).trans
        ((Cert.Rbf.Keepdims.shapeCast_a_a1_apply _ _ q 0).trans (rowSq256_apply g q)))
  have hM := gram_apply x g p q
  exact congrArg₂ max
    (congrArg₂ (· - ·) (congrArg₂ (· + ·) hA hB) (congrArg (Ideal.ofBits .f32 0x40000000#32 * ·) hM)) rfl

end Cert.KernelIdeal.Pay

end
-- ==== Proof.RegionArrays.lean ====
/-
  What the distance launch leaves in its output array, as one function of the arrays it found.

  The launch has one grid point, whose three blocks are the whole arrays: the two pooled arrays P (128 rows) and
  Q (256 rows) of 2048 channels, and the 128 × 256 table. The body leaves at (p, q) the number
  max (|P p|² + |Q q|² − 2 ⟨P p, Q q⟩) 0, and the one block written back covers the table, so the table ends
  holding exactly that function of the two pooled arrays the launch found.
-/
import proofs.«157851_j61735859913133_2_alg».proof.Proof.Gen.KernelIdeal.Frame
import proofs.«157851_j61735859913133_2_alg».proof.Proof.Payloads
import proofs.«157851_j61735859913133_2_alg».proof.Proof.ArrayForms
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offset of a rank-2 access. -/
theorem dist_zeros : (![0, 0] : Fin 2 → Nat) = fun _ => 0 := funext fun a => by fin_cases a <;> rfl

/-! ## The distance launch -/

/-- The one grid point's blocks all start at the origin. -/
theorem dist_idx : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The launch body's table, entry by entry, is the distance table of the two blocks it read. -/
theorem dist_pay_eq (x : Vec Ideal S128x2048 .f32) (g : Vec Ideal S256x2048 .f32) (j : S128x256.Idx) :
    k2_pay1 (F := Ideal) x g j = Cert.PairDist.tableOf x g j := by
  obtain ⟨p, q, rfl⟩ : ∃ p q, j = ix2 p q := ⟨j 0, j 1, eq_ix2 j⟩
  rw [Cert.PairDist.tableOf_ix2]
  exact Pay.dist_apply x g p q

/-- The first pooled array's block at the one point is the whole array. -/
theorem dist_blk0 (c : Dev nD) (t : Fin cfg2.N) : iblk2 (F := Ideal) V c 0 t = V c main_v1 := by
  obtain ⟨e0, e1, e2, e3, e4, e5⟩ := dist_idx t
  funext y
  show V c main_v1 (((cfg2.win 0).blk t).view.emb y) = V c main_v1 y
  congr 1
  funext a; apply Fin.ext
  match a with
  | ⟨0, _⟩ => show win2_0.index t (0 : Fin 2) * 128 + 1 * (y 0).val = (y 0).val; omega
  | ⟨1, _⟩ => show win2_0.index t (1 : Fin 2) * 2048 + 1 * (y 1).val = (y 1).val; omega

/-- The second pooled array's block at the one point is the whole array. -/
theorem dist_blk1 (c : Dev nD) (t : Fin cfg2.N) : iblk2 (F := Ideal) V c 1 t = V c main_v3 := by
  obtain ⟨e0, e1, e2, e3, e4, e5⟩ := dist_idx t
  funext y
  show V c main_v3 (((cfg2.win 1).blk t).view.emb y) = V c main_v3 y
  congr 1
  funext a; apply Fin.ext
  match a with
  | ⟨0, _⟩ => show win2_1.index t (0 : Fin 2) * 256 + 1 * (y 0).val = (y 0).val; omega
  | ⟨1, _⟩ => show win2_1.index t (1 : Fin 2) * 2048 + 1 * (y 1).val = (y 1).val; omega

/-- What the one point writes back is the whole distance table of the two pooled arrays the launch found. -/
theorem dist_flushed_eq (c : Dev nD) (t : Fin cfg2.N) :
    (dat2 (F := Ideal) V c).flushed 2 t = ((cfg2.win 2).blk t).view.read (Elt Ideal) (Cert.PairDist.tableOf (V c main_v1) (V c main_v3)) := by
  show (cfg2.win 2).cut (grid2.coords t) ((dat2 V c).after 2 t) = _
  rw [after2_2]
  unfold out2_2
  rw [View.canon_unit_zero dist_zeros]
  simp only [View.ld_unit_zero (S := S128x2048) dist_zeros, View.ld_unit_zero (S := S256x2048) dist_zeros]
  rw [dist_blk0, dist_blk1]
  obtain ⟨e0, e1, e2, e3, e4, e5⟩ := dist_idx t
  funext j
  show k2_pay1 (F := Ideal) (V c main_v1) (V c main_v3) j = Cert.PairDist.tableOf (V c main_v1) (V c main_v3) (((cfg2.win 2).blk t).view.emb j)
  have hj : ((cfg2.win 2).blk t).view.emb j = j := by
    funext a; apply Fin.ext
    match a with
    | ⟨0, _⟩ => show win2_2.index t (0 : Fin 2) * 128 + 1 * (j 0).val = (j 0).val; omega
    | ⟨1, _⟩ => show win2_2.index t (1 : Fin 2) * 256 + 1 * (j 1).val = (j 1).val; omega
  rw [hj]
  exact dist_pay_eq _ _ j

/-- An index of the table is in the point's block iff each coordinate is in the block's range on its axis. -/
theorem dist_mem_blk (t : Fin cfg2.N) (i : S128x256.Idx) :
    i ∈ ((cfg2.win 2).blk t).view.set ↔ ∀ a : Fin 2, win2_2.index t a * S128x256.size a ≤ (i a).val ∧ (i a).val < win2_2.index t a * S128x256.size a + S128x256.size a := by
  show i ∈ ((View.whole main_v4).slice (win2_2.rect t)).set ↔ _
  rw [View.set_slice_whole, Rect.mem_set_unit]
  exact Iff.rfl

/-- The one point's block covers the whole table. -/
theorem dist_cover (i : S128x256.Idx) :
    ∃ t : Fin cfg2.N, (cfg2.win 2).flush t = true ∧ i ∈ ((cfg2.win 2).blk t).view.set := by
  refine ⟨t2_0, flush2_2 _, ?_⟩
  rw [dist_mem_blk]
  obtain ⟨e0, e1, e2, e3, e4, e5⟩ := dist_idx t2_0
  have h0 : (i 0).val < 128 := idx2_lt0 i
  have h1 : (i 1).val < 256 := idx2_lt1 i
  intro a
  match a with
  | ⟨0, _⟩ => show win2_2.index t2_0 (0 : Fin 2) * 128 ≤ (i 0).val ∧ (i 0).val < win2_2.index t2_0 (0 : Fin 2) * 128 + 128; omega
  | ⟨1, _⟩ => show win2_2.index t2_0 (1 : Fin 2) * 256 ≤ (i 1).val ∧ (i 1).val < win2_2.index t2_0 (1 : Fin 2) * 256 + 256; omega

/-- The table after the launch is the distance table of the two pooled arrays the launch found. -/
theorem dist_final (c : Dev nD) : (dat2 (F := Ideal) V c).arrAt 2 cfg2.N = Cert.PairDist.tableOf (V c main_v1) (V c main_v3) :=
  (dat2 V c).arrAt_eq_of_cover 2 (Cert.PairDist.tableOf (V c main_v1) (V c main_v3)) (fun t _ => dist_flushed_eq V c t) dist_cover

end Cert.KernelIdeal.Arr

end
-- ==== Proof.PoolArrays.lean ====
/-
  What the two pooling launches leave in their output arrays, as one function of the array each launch found.

  A pooling launch reads a batch of feature maps X[n, k, s] (n a map, k one of 2048 channels, s one of the 64
  entries of the channel's window) and writes the pooled array at (n, k): the sum over s of X (n, k, s), times the
  value of the float word for 1/64. Its grid has 16 points. Point t reads the block of channels
  [128 t, 128 t + 128) of every map, all rows and all 64 window entries, and writes back the same channel range of
  the pooled array; within a block the body leaves at (n, q) the sum of the block's 64 entries at (n, q, ·) times
  that value. The 16 blocks tile the 2048 channels (channel k lies in block k / 128, at q = k % 128), so the pooled
  array ends holding at (n, k) exactly the sum over s of the found array at (n, k, s), times that value.
  The first launch pools the 128 probe maps, the second the 256 gallery maps.
-/
import proofs.«157851_j61735859913133_2_alg».proof.Proof.Gen.KernelIdeal.Frame
import proofs.«157851_j61735859913133_2_alg».proof.Proof.Payloads
import proofs.«157851_j61735859913133_2_alg».proof.Proof.ArrayForms
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Cert.PairDist
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offset of a rank-2 access. -/
theorem pool0_zeros2 : (![0, 0] : Fin 2 → Nat) = fun _ => 0 := funext fun a => by fin_cases a <;> rfl
/-- The zero offset of a rank-3 access. -/
theorem pool0_zeros3 : (![0, 0, 0] : Fin 3 → Nat) = fun _ => 0 := funext fun a => by fin_cases a <;> rfl

/-! ## The first pooling launch: the 128 probe maps -/

/-- The launch's index maps over its 16 points: the input block and the output block sit at the same channel
    block, at most the fifteenth, and at the origin of every other axis. -/
theorem pool0_idx : ∀ t : Fin cfg0.N, win0_0.index t (0 : Fin 3) = 0
    ∧ win0_0.index t (1 : Fin 3) = win0_1.index t (1 : Fin 2)
    ∧ win0_0.index t (2 : Fin 3) = 0
    ∧ win0_1.index t (0 : Fin 2) = 0
    ∧ win0_1.index t (1 : Fin 2) ≤ 15 :=
  (by decide +kernel : ∀ t : Fin grid0.N, _)

/-- Every one of the 16 channel blocks is some point's. -/
theorem pool0_onto : ∀ q : Fin 16, ∃ t : Fin cfg0.N, win0_1.index t = ![0, q.val] :=
  (by decide +kernel : ∀ q : Fin 16, ∃ t : Fin grid0.N, win0_1.index t = ![0, q.val])

/-- What the body leaves at block coordinates j is the pooled array of the found maps at the block's place for j. -/
theorem pool0_point (c : Dev nD) (t : Fin cfg0.N) (j : S128x128.Idx) :
    k0_pay1 (F := Ideal) (iblk0 V c 0 t) j = poolOf (V c main_v0) (((cfg0.win 1).blk t).view.emb j) := by
  obtain ⟨e0, e1, e2, e3, e4⟩ := pool0_idx t
  obtain ⟨p, q, rfl⟩ : ∃ p q, j = ix2 p q := ⟨j 0, j 1, eq_ix2 j⟩
  refine (Pay.pool0_apply _ p q).trans ?_
  unfold poolOf
  refine congrArg (· * Ideal.ofBits .f32 0x3C800000#32) (Finset.sum_congr rfl fun s _ => ?_)
  show V c main_v0 (((cfg0.win 0).blk t).view.emb (ix3 p q s)) = _
  congr 1
  funext a; apply Fin.ext
  match a with
  | ⟨0, _⟩ =>
    show win0_0.index t (0 : Fin 3) * 128 + 1 * p.val = win0_1.index t (0 : Fin 2) * 128 + 1 * p.val
    omega
  | ⟨1, _⟩ =>
    show win0_0.index t (1 : Fin 3) * 128 + 1 * q.val = win0_1.index t (1 : Fin 2) * 128 + 1 * q.val
    omega
  | ⟨2, _⟩ =>
    show win0_0.index t (2 : Fin 3) * 64 + 1 * s.val = s.val
    omega

/-- What a point writes back is its block of the pooled array of the maps the launch found. -/
theorem pool0_flushed_eq (c : Dev nD) (t : Fin cfg0.N) :
    (dat0 (F := Ideal) V c).flushed 1 t = ((cfg0.win 1).blk t).view.read (Elt Ideal) (poolOf (V c main_v0)) := by
  show (cfg0.win 1).cut (grid0.coords t) ((dat0 V c).after 1 t) = _
  rw [after0_1]
  unfold out0_1
  rw [View.canon_unit_zero pool0_zeros2]
  simp only [View.ld_unit_zero (S := S128x128x64) pool0_zeros3]
  funext j
  exact pool0_point V c t j

/-- An index of the pooled array is in a point's block iff each coordinate is in the block's range on its axis. -/
theorem pool0_mem_blk (t : Fin cfg0.N) (i : S128x2048.Idx) :
    i ∈ ((cfg0.win 1).blk t).view.set ↔ ∀ a : Fin 2, win0_1.index t a * S128x128.size a ≤ (i a).val ∧ (i a).val < win0_1.index t a * S128x128.size a + S128x128.size a := by
  show i ∈ ((View.whole main_v1).slice (win0_1.rect t)).set ↔ _
  rw [View.set_slice_whole, Rect.mem_set_unit]
  exact Iff.rfl

/-- The 16 blocks cover the pooled array: channel k lies in the block of the point whose channel block is k / 128. -/
theorem pool0_cover (i : S128x2048.Idx) :
    ∃ t : Fin cfg0.N, (cfg0.win 1).flush t = true ∧ i ∈ ((cfg0.win 1).blk t).view.set := by
  have h0 : (i 0).val < 128 := idx2_lt0 i
  have h1 : (i 1).val < 2048 := idx2_lt1 i
  obtain ⟨t, ht⟩ := pool0_onto ⟨(i 1).val / 128, by omega⟩
  have q0 : win0_1.index t (0 : Fin 2) = 0 := congrFun ht 0
  have q1 : win0_1.index t (1 : Fin 2) = (i 1).val / 128 := congrFun ht 1
  refine ⟨t, flush0_1 t, ?_⟩
  rw [pool0_mem_blk]
  intro a
  match a with
  | ⟨0, _⟩ =>
    show win0_1.index t (0 : Fin 2) * 128 ≤ (i 0).val ∧ (i 0).val < win0_1.index t (0 : Fin 2) * 128 + 128
    omega
  | ⟨1, _⟩ =>
    show win0_1.index t (1 : Fin 2) * 128 ≤ (i 1).val ∧ (i 1).val < win0_1.index t (1 : Fin 2) * 128 + 128
    omega

/-- The pooled array after the first launch is the pooled array of the maps the launch found. -/
theorem pool0_final (c : Dev nD) : (dat0 (F := Ideal) V c).arrAt 1 cfg0.N = poolOf (V c main_v0) :=
  (dat0 V c).arrAt_eq_of_cover 1 (poolOf (V c main_v0)) (fun t _ => pool0_flushed_eq V c t) pool0_cover

/-! ## The second pooling launch: the 256 gallery maps -/

/-- The launch's index maps over its 16 points: the input block and the output block sit at the same channel
    block, at most the fifteenth, and at the origin of every other axis. -/
theorem pool1_idx : ∀ t : Fin cfg1.N, win1_0.index t (0 : Fin 3) = 0
    ∧ win1_0.index t (1 : Fin 3) = win1_1.index t (1 : Fin 2)
    ∧ win1_0.index t (2 : Fin 3) = 0
    ∧ win1_1.index t (0 : Fin 2) = 0
    ∧ win1_1.index t (1 : Fin 2) ≤ 15 :=
  (by decide +kernel : ∀ t : Fin grid1.N, _)

/-- Every one of the 16 channel blocks is some point's. -/
theorem pool1_onto : ∀ q : Fin 16, ∃ t : Fin cfg1.N, win1_1.index t = ![0, q.val] :=
  (by decide +kernel : ∀ q : Fin 16, ∃ t : Fin grid1.N, win1_1.index t = ![0, q.val])

/-- What the body leaves at block coordinates j is the pooled array of the found maps at the block's place for j. -/
theorem pool1_point (c : Dev nD) (t : Fin cfg1.N) (j : S256x128.Idx) :
    k1_pay1 (F := Ideal) (iblk1 V c 0 t) j = poolOf (V c main_v2) (((cfg1.win 1).blk t).view.emb j) := by
  obtain ⟨e0, e1, e2, e3, e4⟩ := pool1_idx t
  obtain ⟨p, q, rfl⟩ : ∃ p q, j = ix2 p q := ⟨j 0, j 1, eq_ix2 j⟩
  refine (Pay.pool1_apply _ p q).trans ?_
  unfold poolOf
  refine congrArg (· * Ideal.ofBits .f32 0x3C800000#32) (Finset.sum_congr rfl fun s _ => ?_)
  show V c main_v2 (((cfg1.win 0).blk t).view.emb (ix3 p q s)) = _
  congr 1
  funext a; apply Fin.ext
  match a with
  | ⟨0, _⟩ =>
    show win1_0.index t (0 : Fin 3) * 256 + 1 * p.val = win1_1.index t (0 : Fin 2) * 256 + 1 * p.val
    omega
  | ⟨1, _⟩ =>
    show win1_0.index t (1 : Fin 3) * 128 + 1 * q.val = win1_1.index t (1 : Fin 2) * 128 + 1 * q.val
    omega
  | ⟨2, _⟩ =>
    show win1_0.index t (2 : Fin 3) * 64 + 1 * s.val = s.val
    omega

/-- What a point writes back is its block of the pooled array of the maps the launch found. -/
theorem pool1_flushed_eq (c : Dev nD) (t : Fin cfg1.N) :
    (dat1 (F := Ideal) V c).flushed 1 t = ((cfg1.win 1).blk t).view.read (Elt Ideal) (poolOf (V c main_v2)) := by
  show (cfg1.win 1).cut (grid1.coords t) ((dat1 V c).after 1 t) = _
  rw [after1_1]
  unfold out1_1
  rw [View.canon_unit_zero pool0_zeros2]
  simp only [View.ld_unit_zero (S := S256x128x64) pool0_zeros3]
  funext j
  exact pool1_point V c t j

/-- An index of the pooled array is in a point's block iff each coordinate is in the block's range on its axis. -/
theorem pool1_mem_blk (t : Fin cfg1.N) (i : S256x2048.Idx) :
    i ∈ ((cfg1.win 1).blk t).view.set ↔ ∀ a : Fin 2, win1_1.index t a * S256x128.size a ≤ (i a).val ∧ (i a).val < win1_1.index t a * S256x128.size a + S256x128.size a := by
  show i ∈ ((View.whole main_v3).slice (win1_1.rect t)).set ↔ _
  rw [View.set_slice_whole, Rect.mem_set_unit]
  exact Iff.rfl

/-- The 16 blocks cover the pooled array: channel k lies in the block of the point whose channel block is k / 128. -/
theorem pool1_cover (i : S256x2048.Idx) :
    ∃ t : Fin cfg1.N, (cfg1.win 1).flush t = true ∧ i ∈ ((cfg1.win 1).blk t).view.set := by
  have h0 : (i 0).val < 256 := idx2_lt0 i
  have h1 : (i 1).val < 2048 := idx2_lt1 i
  obtain ⟨t, ht⟩ := pool1_onto ⟨(i 1).val / 128, by omega⟩
  have q0 : win1_1.index t (0 : Fin 2) = 0 := congrFun ht 0
  have q1 : win1_1.index t (1 : Fin 2) = (i 1).val / 128 := congrFun ht 1
  refine ⟨t, flush1_1 t, ?_⟩
  rw [pool1_mem_blk]
  intro a
  match a with
  | ⟨0, _⟩ =>
    show win1_1.index t (0 : Fin 2) * 256 ≤ (i 0).val ∧ (i 0).val < win1_1.index t (0 : Fin 2) * 256 + 256
    omega
  | ⟨1, _⟩ =>
    show win1_1.index t (1 : Fin 2) * 128 ≤ (i 1).val ∧ (i 1).val < win1_1.index t (1 : Fin 2) * 128 + 128
    omega

/-- The pooled array after the second launch is the pooled array of the maps the launch found. -/
theorem pool1_final (c : Dev nD) : (dat1 (F := Ideal) V c).arrAt 1 cfg1.N = poolOf (V c main_v2) :=
  (dat1 V c).arrAt_eq_of_cover 1 (poolOf (V c main_v2)) (fun t _ => pool1_flushed_eq V c t) pool1_cover

end Cert.KernelIdeal.Arr

end
-- ==== Proof.KernelValue.lean ====
/-
  What the idealized kernel computes, on finite inputs: the reference's distance table, flattened.

  The result buffer is the reshape of the table launch 2 leaves. Launch 2's table is, entry by entry, the clamped
  expansion |p|² + |g|² − 2⟨p, g⟩ of the two pooled arrays it found; those are what launches 0 and 1 left, each entry
  the sum of the 64 entries of one flattened window times 1/64; and the flattened window's entry s is the 8×8
  window's entry (s / 8, s % 8). So the table is the kernel's closed form of the argument arrays, which on finite
  inputs is the reference's sum of squared differences of the window means.
-/
import proofs.«157851_j61735859913133_2_alg».proof.Proof.KernelChain
import proofs.«157851_j61735859913133_2_alg».proof.Proof.Spec
import proofs.«157851_j61735859913133_2_alg».proof.Proof.ArrayForms
import proofs.«157851_j61735859913133_2_alg».proof.Proof.Algebra
import proofs.«157851_j61735859913133_2_alg».proof.Proof.RegionArrays
import proofs.«157851_j61735859913133_2_alg».proof.Proof.PoolArrays
import Idealize.ShloMosaic.Lib.Pipeline.Value

noncomputable section

namespace Cert.PairDist

open Idealize.ShloMosaic Idealize.ShloMosaic.ValueIdx

/-- Flattening each 8×8 window to 64 entries, row-major: entry s of the flat window is entry (s / 8, s % 8). -/
theorem flatten_apply {α : Type} {N : Nat} (x : (Maps N).Idx → α) (h : (Maps N).ShapeCasts ⟨3, ![N, 2048, 64]⟩)
    (n : Fin N) (k : Fin 2048) (s : Fin 64) :
    shapeCast ⟨3, ![N, 2048, 64]⟩ x h (ix3 n k s) = x (cell n k s) :=
  shapeCast_apply x h _ _ (by
    rw [Shape.rowMajor_val_four, Shape.rowMajor_val_three]
    show ((n.val * 2048 + k.val) * 8 + s.val / 8) * 8 + s.val % 8 = (n.val * 2048 + k.val) * 64 + s.val
    omega)

/-- Pooling the flattened maps gives the kernel's window means. -/
theorem poolOf_flatten {N : Nat} (x : (Maps N).Idx → EReal) (h : (Maps N).ShapeCasts ⟨3, ![N, 2048, 64]⟩)
    (n : Fin N) (k : Fin 2048) :
    poolOf (shapeCast ⟨3, ![N, 2048, 64]⟩ x h) (ix2 n k) = meanK x n k := by
  rw [poolOf_ix2, ofBits_inv64]
  exact congrArg (· * _) (Finset.sum_congr rfl fun s _ => flatten_apply x h n k s)

/-- The kernel's table of the two pooled, flattened argument arrays is its closed form of the arguments. -/
theorem tableOf_pool (x0 : (Maps 128).Idx → EReal) (x1 : (Maps 256).Idx → EReal)
    (h0 : (Maps 128).ShapeCasts ⟨3, ![128, 2048, 64]⟩) (h1 : (Maps 256).ShapeCasts ⟨3, ![256, 2048, 64]⟩) :
    tableOf (poolOf (shapeCast ⟨3, ![128, 2048, 64]⟩ x0 h0)) (poolOf (shapeCast ⟨3, ![256, 2048, 64]⟩ x1 h1))
      = kerDist (meanK x0) (meanK x1) := by
  funext j
  obtain ⟨p, q, rfl⟩ : ∃ (p : Fin 128) (q : Fin 256), j = ix2 p q := ⟨j 0, j 1, eq_ix2 j⟩
  rw [tableOf_ix2, ofBits_two, Ideal.ofBits_zero_f32]
  simp only [poolOf_flatten]
  rfl

end Cert.PairDist

namespace Cert.KernelIdeal.Chain

open Cert.KernelIdeal Cert.KernelIdeal.Gen Cert.PairDist
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result buffer after the run, given what each launch leaves in its output array as a function of the
    arrays it found, and the inputs finite. -/
theorem value_of_regions (c : Dev nD)
    (hP : (dat0 (F := Ideal) (V1 m ρ) c).arrAt 1 cfg0.N = poolOf (V1 m ρ c main_v0))
    (hG : (dat1 (F := Ideal) (V3 m ρ) c).arrAt 1 cfg1.N = poolOf (V3 m ρ c main_v2))
    (hD : (dat2 (F := Ideal) (V4 m ρ) c).arrAt 2 cfg2.N = tableOf (V4 m ρ c main_v1) (V4 m ρ c main_v3))
    (h0 : ∀ i, ∃ r : ℝ, m ((c : Thread nD τ).loc main_arg0) i = (r : EReal))
    (h1 : ∀ i, ∃ r : ℝ, m ((c : Thread nD τ).loc main_arg1) i = (r : EReal)) :
    W6 (F := Ideal) m ρ c (Proc.devRef .tc main_v5)
      = shapeCast S32768 (refDist (m ((c : Thread nD τ).loc main_arg0)) (m ((c : Thread nD τ).loc main_arg1)))
          shapeCasts_S128x256_S32768 := by
  rw [result_eq, table_eq, hD, probe_feat_eq, hP, probe_maps_eq, gallery_feat_eq, hG, gallery_maps_eq,
    tableOf_pool, kerDist_meanK_eq_refDist _ _ h0 h1]

/-- The result buffer after the run, on finite inputs: the reference's distance table, flattened. -/
theorem kernel_value (c : Dev nD)
    (h0 : ∀ i, ∃ r : ℝ, m ((c : Thread nD τ).loc main_arg0) i = (r : EReal))
    (h1 : ∀ i, ∃ r : ℝ, m ((c : Thread nD τ).loc main_arg1) i = (r : EReal)) :
    W6 (F := Ideal) m ρ c (Proc.devRef .tc main_v5)
      = shapeCast S32768 (refDist (m ((c : Thread nD τ).loc main_arg0)) (m ((c : Thread nD τ).loc main_arg1)))
          shapeCasts_S128x256_S32768 :=
  value_of_regions m ρ c (Cert.KernelIdeal.Arr.pool0_final (V1 m ρ) c) (Cert.KernelIdeal.Arr.pool1_final (V3 m ρ) c)
    (Cert.KernelIdeal.Arr.dist_final (V4 m ρ) c) h0 h1

end Cert.KernelIdeal.Chain

end
-- ==== Proof.Finite.lean ====
/-
  Finiteness from the precondition.

  The precondition says, for each of the two inputs, that |x| < +inf holds at every entry (the conjunction over all
  four axes of the elementwise comparison against the float word of +inf), and that both conjunctions hold.
  An extended real whose absolute value max x (-x) lies strictly below the top element is neither the top nor the
  bottom element, so it is a real number. Hence every entry of both inputs is a real number.
-/
import proofs.«157851_j61735859913133_2_alg».proof.Pre_finite_inputs
import proofs.«157851_j61735859913133_2_alg».proof.Proof.Spec
import Idealize.ShloMosaic.Lib.ReduceAll
import Idealize.ShloMosaic.Lib.ValueIdx

noncomputable section

namespace Cert.PairDist

open Idealize.ShloMosaic Idealize.ShloMosaic.ValueIdx

/-- The rank-0 shape has exactly one index. -/
instance : Subsingleton Cert.Pre_finite_inputs.S_.Idx := ⟨fun a b => funext fun d => d.elim0⟩

/-- The float word 0x7F800000 denotes the top element. -/
theorem ofBits_inf : Ideal.ofBits .f32 0x7F800000#32 = (⊤ : EReal) := by
  simp [Ideal.ofBits, Ideal.ieee]

/-- An extended real whose absolute value max x (-x) is strictly below the top element is a real number:
    the absolute value of either infinity is the top element itself. -/
theorem real_of_abs_lt_inf (x : EReal)
    (e : Ideal.cmp .olt (max x (-x)) (Ideal.ofBits .f32 0x7F800000#32) = 1#1) : ∃ r : ℝ, x = (r : EReal) := by
  rw [ofBits_inf] at e
  induction x using EReal.rec with
  | bot => simp [Ideal.cmp] at e
  | coe r => exact ⟨r, rfl⟩
  | top => simp [Ideal.cmp] at e

/-- Under the precondition (both conjunctions of |x| < +inf over all entries hold), every entry of both inputs is a
    real number. -/
theorem finite_of_pre [Cert.Pre_finite_inputs.Facts]
    (x0 : FVec Ideal Cert.Pre_finite_inputs.S128x2048x8x8 .f32) (x1 : FVec Ideal Cert.Pre_finite_inputs.S256x2048x8x8 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  have ea := fun i => Host.reduce_andi_all _ _ _ _ _ ha i
  have eb := fun i => Host.reduce_andi_all _ _ _ _ _ hb i
  exact ⟨fun i => real_of_abs_lt_inf (x0 i) (ea i), fun i => real_of_abs_lt_inf (x1 i) (eb i)⟩

end Cert.PairDist

end
-- ==== Proof.RefValue.lean ====
/-
  The reference program's table of distances, in closed form over the extended reals.

  The reference sums each 8×8 window of a feature map over its two spatial axes, divides the sum by 64,
  and then, for every probe row a and gallery row b, sums over the 2048 channels the square of the
  difference of the two window means. Read one operation at a time, its value at (a, b) is

      ∑ k, (meanQ x1 b k − meanQ x0 a k) · (meanQ x1 b k − meanQ x0 a k),

  which is refDist. The one step that is not a reading of a single operand element is the sum over the
  two window axes: the indices of [N, 2048, 8, 8] whose first two coordinates are (n, c) are exactly the
  indices (n, c, h, w), one for every pair (h, w), so the sum over them is the double sum over h and w.
-/
import proofs.«157851_j61735859913133_2_alg».proof.Proof.Gen.ReferenceIdeal.Read
import proofs.«157851_j61735859913133_2_alg».proof.Proof.Spec
import Idealize.ShloMosaic.Lib.ValueIdx
import Idealize.ShloMosaic.PureOps.Ideal.Laws

noncomputable section

open scoped BigOperators

namespace Cert.PairDist

open Idealize.ShloMosaic Idealize.ShloMosaic.ValueIdx
open Cert.ReferenceIdeal Cert.ReferenceIdeal.Gen Cert.ReferenceIdeal.Read

/-- The sum over the two window axes of a batch of feature maps, at (n, c): the initial value plus the
    double sum over the window's rows and columns. -/
theorem hostReduceAdd_window {N : Nat} (h' : (Maps N).ReducesTo [2, 3] (Feat N)) (x : (Maps N).Idx → EReal)
    (init : EReal) (i : (Feat N).Idx) :
    Ideal.hostReduceAdd h' x init i = init + ∑ h : Fin 8, ∑ w : Fin 8, x (ix4 (i 0) (i 1) h w) := by
  unfold Ideal.hostReduceAdd
  refine congrArg (init + ·) ?_
  rw [← Finset.sum_product']
  have key : ∀ j : (Maps N).Idx, h'.drop j = i → ix4 (i 0) (i 1) (j 2) (j 3) = j := by
    intro j hj
    subst hj
    funext a
    match a with
    | ⟨0, _⟩ => exact Fin.ext rfl
    | ⟨1, _⟩ => exact Fin.ext rfl
    | ⟨2, _⟩ => rfl
    | ⟨3, _⟩ => rfl
  refine Finset.sum_nbij' (fun j => ((j 2, j 3) : Fin 8 × Fin 8)) (fun p => ix4 (i 0) (i 1) p.1 p.2) ?_ ?_ ?_ ?_ ?_
  · intro j _; exact Finset.mem_product.2 ⟨Finset.mem_univ _, Finset.mem_univ _⟩
  · intro p _
    refine Finset.mem_filter.2 ⟨Finset.mem_univ _, ?_⟩
    funext b
    match b with
    | ⟨0, _⟩ => exact Fin.ext rfl
    | ⟨1, _⟩ => exact Fin.ext rfl
  · intro j hj; exact key j (Finset.mem_filter.1 hj).2
  · intro p _; rfl
  · intro j hj; exact congrArg x (key j (Finset.mem_filter.1 hj).2).symm

/-- The first program input's pooled features as the reference takes them: the window mean meanQ. -/
theorem val_main_v2_eq (x0 : (⟨S128x2048x8x8, .f32⟩ : BufTy).Contents (Elt Ideal)) (j : S128x2048.Idx) :
    val_main_v2 (F := Ideal) x0 j = meanQ x0 (j 0) (j 1) := by
  rw [val_main_v2_apply, val_main_v1_apply, val_main_cst_0_apply]
  unfold val_main_v0
  simp only [Host.reduceAdd, Ideal.hostReduceAdd_def]
  rw [hostReduceAdd_window, val_main_cst_apply]
  simp only [Ideal.hostDivf_def, Ideal.ofBits_def, Ideal.ofBits_zero_f32, ofBits_64, zero_add]
  rfl

/-- The second program input's pooled features likewise. -/
theorem val_main_v5_eq (x1 : (⟨S256x2048x8x8, .f32⟩ : BufTy).Contents (Elt Ideal)) (j : S256x2048.Idx) :
    val_main_v5 (F := Ideal) x1 j = meanQ x1 (j 0) (j 1) := by
  rw [val_main_v5_apply, val_main_v4_apply, val_main_cst_2_apply]
  unfold val_main_v3
  simp only [Host.reduceAdd, Ideal.hostReduceAdd_def]
  rw [hostReduceAdd_window, val_main_cst_1_apply]
  simp only [Ideal.hostDivf_def, Ideal.ofBits_def, Ideal.ofBits_zero_f32, ofBits_64, zero_add]
  rfl

/-- The reference's table of distances is refDist of the two inputs. -/
theorem ref_eq (x0 : (⟨S128x2048x8x8, .f32⟩ : BufTy).Contents (Elt Ideal))
    (x1 : (⟨S256x2048x8x8, .f32⟩ : BufTy).Contents (Elt Ideal)) :
    val_main_v12 (F := Ideal) x0 x1 = refDist x0 x1 := by
  funext i
  rw [val_main_v12_apply, val_main_cst_3_apply]
  simp only [Ideal.ofBits_def, Ideal.ofBits_zero_f32, zero_add]
  unfold refDist
  refine Finset.sum_congr rfl fun k _ => ?_
  rw [val_main_v11_apply, val_main_v10_apply, val_main_v8_apply, val_main_v6_apply, val_main_v9_apply,
    val_main_v7_apply, val_main_v5_eq, val_main_v2_eq]
  simp only [Ideal.mulf_def, Ideal.subf_def]
  rfl

end Cert.PairDist

end
-- ==== Proof.lean ====
/-
  The kernel and the reference compute the same table of pairwise squared distances.

  Both programs take two batches of feature maps, x0[128, 2048, 8, 8] and x1[256, 2048, 8, 8], average each 8×8
  window into one number per map and channel, and compare every row of the first with every row of the second
  over the 2048 channels; the result is the table of the 128 × 256 squared distances, flattened.
  * The reference divides each window's sum by 64 and sums the squared differences of the two means.
  * The kernel multiplies each window's sum by 1/64 and expands the square: |p|² + |g|² − 2⟨p, g⟩, clamped below
    at zero.
  Over the extended reals, on inputs whose entries are all real numbers (the precondition), the two agree: 1/64 is
  the exact reciprocal of 64, the square of a difference of reals expands termwise, and a sum of squares is never
  negative, so the clamp changes nothing. Each program's result is shown equal to the one closed form refDist of
  the argument arrays, flattened; arguments that agree then give results that agree. Both programs run to the end
  without a fault and leave their arguments as they were.
-/
import proofs.«157851_j61735859913133_2_alg».proof.Defs
import proofs.«157851_j61735859913133_2_alg».proof.Proof.Gen.Kernel
import proofs.«157851_j61735859913133_2_alg».proof.Proof.Gen.Kernel.Skeleton
import proofs.«157851_j61735859913133_2_alg».proof.Proof.Gen.Kernel.Launch
import proofs.«157851_j61735859913133_2_alg».proof.Proof.Gen.Kernel.Points
import proofs.«157851_j61735859913133_2_alg».proof.Proof.Gen.Kernel.Frame
import proofs.«157851_j61735859913133_2_alg».proof.Proof.Gen.KernelIdeal
import proofs.«157851_j61735859913133_2_alg».proof.Proof.Gen.KernelIdeal.Skeleton
import proofs.«157851_j61735859913133_2_alg».proof.Proof.Gen.KernelIdeal.Launch
import proofs.«157851_j61735859913133_2_alg».proof.Proof.Gen.KernelIdeal.Points
import proofs.«157851_j61735859913133_2_alg».proof.Proof.Gen.KernelIdeal.Frame
import proofs.«157851_j61735859913133_2_alg».proof.Proof.Gen.ReferenceIdeal
import proofs.«157851_j61735859913133_2_alg».proof.Proof.Gen.Pre_finite_inputs
import proofs.«157851_j61735859913133_2_alg».proof.Proof.Gen.ReferenceIdeal.Run
import proofs.«157851_j61735859913133_2_alg».proof.Proof.Gen.ReferenceIdeal.Read
import proofs.«157851_j61735859913133_2_alg».proof.Proof.Spec
import proofs.«157851_j61735859913133_2_alg».proof.Proof.KernelRun
import proofs.«157851_j61735859913133_2_alg».proof.Proof.KernelValue
import proofs.«157851_j61735859913133_2_alg».proof.Proof.Finite
import proofs.«157851_j61735859913133_2_alg».proof.Proof.RefValue
import Idealize.ShloMosaic.Adequacy
import Idealize.ShloMosaic.Init

noncomputable section

/-! ## The claims -/

namespace Cert.Proof.PairDistClaims

open Idealize.ShloMosaic Idealize.ShloMosaic.TcCoe Idealize.SL.Sem

/-- The kernel runs to the end and leaves its two arguments as they were. -/
theorem frame_p : Cert.frame_Kernel := fun m ρ _ => Cert.Kernel.Gen.frame m ρ

/-- So does the kernel read over the extended reals. -/
theorem frame_pi : Cert.frame_KernelIdeal := fun m ρ _ => Cert.KernelIdeal.Gen.frame m ρ

/-- So does the reference: its run, read back one operation after another, keeps the arguments. -/
theorem frame_ri : Cert.frame_ReferenceIdeal := fun m ρ _ =>
  (θ_run Cert.ReferenceIdeal.defs _ _).mono (fun _ h c => (h c).2) (Cert.ReferenceIdeal.Value.run (F := Ideal) m ρ)

/-- The kernel over the extended reals is the kernel's own text: no operation was rewritten. -/
theorem preserves : Cert.preserves_Kernel_KernelIdeal := trivial

/-- On arguments that agree and whose entries are all real numbers, both programs end with the flattened table
    refDist of the arguments: the kernel by its expanded square, the reference operation by operation. -/
theorem algebraic : Cert.algebraic_KernelIdeal_ReferenceIdeal := by
  intro m ρ m' ρ' hpre hagree
  have fin := fun c => Cert.PairDist.finite_of_pre _ _ (hpre c)
  refine ⟨fun c => shapeCast Cert.KernelIdeal.S32768
      (Cert.PairDist.refDist (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Gen.shapeCasts_S128x256_S32768, ?_, ?_⟩
  · exact (θ_run Cert.KernelIdeal.defs _ _).mono
      (fun r h c => ⟨(h c).1.trans (Cert.KernelIdeal.Chain.kernel_value m ρ c (fin c).1 (fin c).2), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, (hagree c).1, (hagree c).2]
    unfold Cert.ReferenceIdeal.Read.val_main_v13
    rw [Cert.PairDist.ref_eq]

end Cert.Proof.PairDistClaims

namespace Cert.Proof

open Cert.Proof.PairDistClaims

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
